-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x512 : Shape := ⟨3, ![8, 256, 512]⟩
abbrev S8x64x512 : Shape := ⟨3, ![8, 64, 512]⟩
abbrev S1024x512 : Shape := ⟨2, ![1024, 512]⟩
abbrev S1024 : Shape := ⟨1, ![1024]⟩
abbrev S_ : Shape := ⟨0, ![]⟩

class Facts : Prop where
  bcast_S_S8x256x512 : S_.BroadcastsInDim S8x256x512 (![] : Fin 0 → Fin S8x256x512.rank)
  reducesTo_S8x256x512_S_d0_1_2 : S8x256x512.ReducesTo [0, 1, 2] S_
  h_S_ : 0 < S_.numel
  bcast_S_S8x64x512 : S_.BroadcastsInDim S8x64x512 (![] : Fin 0 → Fin S8x64x512.rank)
  reducesTo_S8x64x512_S_d0_1_2 : S8x64x512.ReducesTo [0, 1, 2] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S8x256x512 .f32) (main_arg1 : FVec F S8x64x512 .f32) (main_arg2 : FVec F S1024x512 .f32) (main_arg3 : FVec F S1024 .f32) : IVec S_ 1 :=
  let main_v0 : FVec F S8x256x512 .f32 := Host.absf main_arg0
  let main_cst : FVec F S_ .f32 := constant S_ .f32 0x7F800000#32
  let main_v1 : FVec F S8x256x512 .f32 := broadcastInDim S8x256x512 ![] bcast_S_S8x256x512 main_cst
  let main_v2 : IVec S8x256x512 1 := cmpf .olt main_v0 main_v1
  let main_c : IVec S_ 1 := constantI S_ 1 1#1
  let main_v3 : IVec S_ 1 := (fun x v => Host.reduce IntOp.andi x v reducesTo_S8x256x512_S_d0_1_2 h_S_) main_v2 main_c
  let main_v4 : FVec F S8x64x512 .f32 := Host.absf main_arg1
  let main_cst_0 : FVec F S_ .f32 := constant S_ .f32 0x7F800000#32
  let main_v5 : FVec F S8x64x512 .f32 := broadcastInDim S8x64x512 ![] bcast_S_S8x64x512 main_cst_0
  let main_v6 : IVec S8x64x512 1 := cmpf .olt main_v4 main_v5
  let main_c_1 : IVec S_ 1 := constantI S_ 1 1#1
  let main_v7 : IVec S_ 1 := (fun x v => Host.reduce IntOp.andi x v reducesTo_S8x64x512_S_d0_1_2 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S8x256x512 : Shape := ⟨3, ![8, 256, 512]⟩
abbrev S8x64x512 : Shape := ⟨3, ![8, 64, 512]⟩
abbrev S1024x512 : Shape := ⟨2, ![1024, 512]⟩
abbrev S1024 : Shape := ⟨1, ![1024]⟩
abbrev S512x1024 : Shape := ⟨2, ![512, 1024]⟩
abbrev S1x1024 : Shape := ⟨2, ![1, 1024]⟩
abbrev S8x256x64x1024 : Shape := ⟨4, ![8, 256, 64, 1024]⟩
abbrev S1x32x512 : Shape := ⟨3, ![1, 32, 512]⟩
abbrev S1x64x512 : Shape := ⟨3, ![1, 64, 512]⟩
abbrev S1x32x64x1024 : Shape := ⟨4, ![1, 32, 64, 1024]⟩
abbrev S2048x512 : Shape := ⟨2, ![2048, 512]⟩
abbrev S32x512 : Shape := ⟨2, ![32, 512]⟩
abbrev S64x512 : Shape := ⟨2, ![64, 512]⟩
abbrev S32x1x512 : Shape := ⟨3, ![32, 1, 512]⟩
abbrev S32x64x512 : Shape := ⟨3, ![32, 64, 512]⟩
abbrev S512x512 : Shape := ⟨2, ![512, 512]⟩
abbrev S8x64x1024 : Shape := ⟨3, ![8, 64, 1024]⟩
abbrev S1x8x64x1024 : Shape := ⟨4, ![1, 8, 64, 1024]⟩

abbrev nBuf : Space → Nat
  | .hbm => 8
  | .vmem => 9
  | .smem => 0
  | _ => 0

abbrev bufTy : (tb : Table) → Fin (tcTables nBuf tb) → BufTy
  | .hbm, ⟨0, _⟩ => ⟨S8x256x512, .f32⟩
  | .hbm, ⟨1, _⟩ => ⟨S8x64x512, .f32⟩
  | .hbm, ⟨2, _⟩ => ⟨S1024x512, .f32⟩
  | .hbm, ⟨3, _⟩ => ⟨S1024, .f32⟩
  | .hbm, ⟨4, _⟩ => ⟨S512x1024, .f32⟩
  | .hbm, ⟨5, _⟩ => ⟨S512x1024, .bf16⟩
  | .hbm, ⟨6, _⟩ => ⟨S1x1024, .f32⟩
  | .hbm, ⟨7, _⟩ => ⟨S8x256x64x1024, .f32⟩
  | .local _ .vmem, ⟨0, _⟩ => ⟨S1x32x512, .f32⟩
  | .local _ .vmem, ⟨1, _⟩ => ⟨S1x32x512, .f32⟩
  | .local _ .vmem, ⟨2, _⟩ => ⟨S1x64x512, .f32⟩
  | .local _ .vmem, ⟨3, _⟩ => ⟨S1x64x512, .f32⟩
  | .local _ .vmem, ⟨4, _⟩ => ⟨S512x1024, .bf16⟩
  | .local _ .vmem, ⟨5, _⟩ => ⟨S1x1024, .f32⟩
  | .local _ .vmem, ⟨6, _⟩ => ⟨S1x32x64x1024, .f32⟩
  | .local _ .vmem, ⟨7, _⟩ => ⟨S1x32x64x1024, .f32⟩
  | .local _ .vmem, ⟨8, _⟩ => ⟨S2048x512, .bf16⟩
  | _, _ => ⟨S8x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x32x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  transposes_S1024x512_S512x1024_1_0 : S1024x512.Transposes [1, 0] S512x1024
  bitsLt_bf16_f32 : FTy.bits .bf16 < FTy.bits .f32
  shapeCasts_S1024_S1x1024 : S1024.ShapeCasts S1x1024
  inb_S1x32x512_S1x32x512_0_0_0 : ∀ a, (![0, 0, 0] : Fin 3 → Nat) a + S1x32x512.size a ≤ S1x32x512.size a
  h_S1x32x512 : 0 < S1x32x512.numel
  shapeCasts_S1x32x512_S32x512 : S1x32x512.ShapeCasts S32x512
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  shapeCasts_S32x512_S32x1x512 : S32x512.ShapeCasts S32x1x512
  shapeCasts_S64x512_S1x64x512 : S64x512.ShapeCasts S1x64x512
  broadcasts_S32x1x512_S32x64x512 : S32x1x512.Broadcasts S32x64x512
  broadcasts_S1x64x512_S32x64x512 : S1x64x512.Broadcasts S32x64x512
  shapeCasts_S32x64x512_S2048x512 : S32x64x512.ShapeCasts S2048x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  packedbf16_S2048x512_S2048x512_0_0 : (Rect.unit (s := S2048x512) ![0, 0] S2048x512.size inb_S2048x512_S2048x512_0_0).PackedRows (EltTy.packing .bf16)
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S2048x512_S512x512_0_0 : ∀ a, (![0, 0] : Fin 2 → Nat) a + S512x512.size a ≤ S2048x512.size a
  h_S512x512 : 0 < S512x512.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  broadcasts_S1x1024_S512x1024 : S1x1024.Broadcasts S512x1024
  shapeCasts_S512x1024_S8x64x1024 : S512x1024.ShapeCasts S8x64x1024
  inb_S1x32x64x1024_S1x8x64x1024_0_0_0_0 : ∀ a, (![0, 0, 0, 0] : Fin 4 → Nat) a + S1x8x64x1024.size a ≤ S1x32x64x1024.size a
  h_S1x8x64x1024 : 0 < S1x8x64x1024.numel
  shapeCasts_S1x8x64x1024_S8x64x1024 : S1x8x64x1024.ShapeCasts S8x64x1024
  shapeCasts_S8x64x1024_S1x8x64x1024 : S8x64x1024.ShapeCasts S1x8x64x1024
  inb_S2048x512_S512x512_512_0 : ∀ a, (![512, 0] : Fin 2 → Nat) a + S512x512.size a ≤ S2048x512.size a
  inb_S1x32x64x1024_S1x8x64x1024_0_8_0_0 : ∀ a, (![0, 8, 0, 0] : Fin 4 → Nat) a + S1x8x64x1024.size a ≤ S1x32x64x1024.size a
  inb_S2048x512_S512x512_1024_0 : ∀ a, (![1024, 0] : Fin 2 → Nat) a + S512x512.size a ≤ S2048x512.size a
  inb_S1x32x64x1024_S1x8x64x1024_0_16_0_0 : ∀ a, (![0, 16, 0, 0] : Fin 4 → Nat) a + S1x8x64x1024.size a ≤ S1x32x64x1024.size a
  inb_S2048x512_S512x512_1536_0 : ∀ a, (![1536, 0] : Fin 2 → Nat) a + S512x512.size a ≤ S2048x512.size a
  inb_S1x32x64x1024_S1x8x64x1024_0_24_0_0 : ∀ a, (![0, 24, 0, 0] : Fin 4 → Nat) a + S1x8x64x1024.size a ≤ S1x32x64x1024.size a
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x512.size a ≤ S8x256x512.size a
  hwx0_0 : ∀ i : grid0.Coords, EltTy.bits .f32 = 32 ∨ (Rect.block (s := S8x256x512) S1x32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x512.size a ≤ S8x64x512.size a
  hwx0_1 : ∀ i : grid0.Coords, EltTy.bits .f32 = 32 ∨ (Rect.block (s := S8x64x512) S1x64x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .bf16 = 32 ∨ (Rect.block (s := S512x1024) S512x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x32x64x1024.size a ≤ S8x256x64x1024.size a
  hwx0_4 : ∀ i : grid0.Coords, EltTy.bits .f32 = 32 ∨ (Rect.block (s := S8x256x64x1024) S1x32x64x1024.size (cc0_transform_4 i) (hinb0_4 i)).WholeWords (EltTy.packing .f32)

variable [Facts₀]

def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_arg0) S1x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x32x64x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x256x512 : Shape := ⟨3, ![8, 256, 512]⟩
abbrev S8x64x512 : Shape := ⟨3, ![8, 64, 512]⟩
abbrev S1024x512 : Shape := ⟨2, ![1024, 512]⟩
abbrev S1024 : Shape := ⟨1, ![1024]⟩
abbrev S8x256x1x512 : Shape := ⟨4, ![8, 256, 1, 512]⟩
abbrev S_ : Shape := ⟨0, ![]⟩
abbrev S8x1x64x512 : Shape := ⟨4, ![8, 1, 64, 512]⟩
abbrev S8x256x64x512 : Shape := ⟨4, ![8, 256, 64, 512]⟩
abbrev S8x256x64x1024 : Shape := ⟨4, ![8, 256, 64, 1024]⟩
abbrev S1x1x1x1024 : Shape := ⟨4, ![1, 1, 1, 1024]⟩

abbrev nBuf : Space → Nat
  | .hbm => 22
  | .vmem => 0
  | .smem => 0
  | _ => 0

abbrev bufTy : (tb : Table) → Fin (tcTables nBuf tb) → BufTy
  | .hbm, ⟨0, _⟩ => ⟨S8x256x512, .f32⟩
  | .hbm, ⟨1, _⟩ => ⟨S8x64x512, .f32⟩
  | .hbm, ⟨2, _⟩ => ⟨S1024x512, .f32⟩
  | .hbm, ⟨3, _⟩ => ⟨S1024, .f32⟩
  | .hbm, ⟨4, _⟩ => ⟨S8x256x1x512, .f32⟩
  | .hbm, ⟨5, _⟩ => ⟨S_, .f32⟩
  | .hbm, ⟨6, _⟩ => ⟨S8x256x1x512, .f32⟩
  | .hbm, ⟨7, _⟩ => ⟨S8x256x1x512, .f32⟩
  | .hbm, ⟨8, _⟩ => ⟨S8x1x64x512, .f32⟩
  | .hbm, ⟨9, _⟩ => ⟨S_, .f32⟩
  | .hbm, ⟨10, _⟩ => ⟨S8x1x64x512, .f32⟩
  | .hbm, ⟨11, _⟩ => ⟨S8x1x64x512, .f32⟩
  | .hbm, ⟨12, _⟩ => ⟨S8x256x64x512, .f32⟩
  | .hbm, ⟨13, _⟩ => ⟨S8x256x64x512, .f32⟩
  | .hbm, ⟨14, _⟩ => ⟨S8x256x64x512, .f32⟩
  | .hbm, ⟨15, _⟩ => ⟨S_, .f32⟩
  | .hbm, ⟨16, _⟩ => ⟨S8x256x64x512, .f32⟩
  | .hbm, ⟨17, _⟩ => ⟨S8x256x64x512, .f32⟩
  | .hbm, ⟨18, _⟩ => ⟨S8x256x64x1024, .f32⟩
  | .hbm, ⟨19, _⟩ => ⟨S1x1x1x1024, .f32⟩
  | .hbm, ⟨20, _⟩ => ⟨S8x256x64x1024, .f32⟩
  | .hbm, ⟨21, _⟩ => ⟨S8x256x64x1024, .f32⟩
  | _, _ => ⟨S8x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_cst : Ref sig .tc := ⟨.hbm, 15, rfl⟩
abbrev main_call0_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  bcast_S8x256x512_S8x256x1x512_0_1_3 : S8x256x512.BroadcastsInDim S8x256x1x512 (![0, 1, 3] : Fin 3 → Fin S8x256x1x512.rank)
  bcast_S_S8x256x1x512 : S_.BroadcastsInDim S8x256x1x512 (![] : Fin 0 → Fin S8x256x1x512.rank)
  bcast_S8x64x512_S8x1x64x512_0_2_3 : S8x64x512.BroadcastsInDim S8x1x64x512 (![0, 2, 3] : Fin 3 → Fin S8x1x64x512.rank)
  bcast_S_S8x1x64x512 : S_.BroadcastsInDim S8x1x64x512 (![] : Fin 0 → Fin S8x1x64x512.rank)
  bcast_S8x256x1x512_S8x256x64x512_0_1_2_3 : S8x256x1x512.BroadcastsInDim S8x256x64x512 (![0, 1, 2, 3] : Fin 4 → Fin S8x256x64x512.rank)
  bcast_S8x1x64x512_S8x256x64x512_0_1_2_3 : S8x1x64x512.BroadcastsInDim S8x256x64x512 (![0, 1, 2, 3] : Fin 4 → Fin S8x256x64x512.rank)
  bcast_S_S8x256x64x512 : S_.BroadcastsInDim S8x256x64x512 (![] : Fin 0 → Fin S8x256x64x512.rank)
  bcast_S1024_S1x1x1x1024_3 : S1024.BroadcastsInDim S1x1x1x1024 (![3] : Fin 1 → Fin S1x1x1x1024.rank)
  bcast_S1x1x1x1024_S8x256x64x1024_0_1_2_3 : S1x1x1x1024.BroadcastsInDim S8x256x64x1024 (![0, 1, 2, 3] : Fin 4 → Fin S8x256x64x1024.rank)
  dot_S8x256x64x512_S1024x512_S8x256x64x1024_3_1_012_0_n_n_wf : DotDims.WF S8x256x64x512 S1024x512 S8x256x64x1024 [3] [1] [0, 1, 2] [0] [] []

variable [Facts₀]

def dot_S8x256x64x512_S1024x512_S8x256x64x1024_3_1_012_0_n_n : DotDims S8x256x64x512 S1024x512 S8x256x64x1024 where
  lhsContracting := [3]
  rhsContracting := [1]
  lhsNonContracting := [0, 1, 2]
  rhsNonContracting := [0]
  lhsBatch := []
  rhsBatch := []
  wf := dot_S8x256x64x512_S1024x512_S8x256x64x1024_3_1_012_0_n_n_wf

class Facts : Prop extends Facts₀ where

variable [Facts]
-- ==== Proof.Spec.lean ====
/-
  The joiner's result as one function of its four argument arrays, over the extended reals.

  For x : [8, 256, 512], y : [8, 64, 512], W : [1024, 512] and bias : [1024] the result at (b, t, u, v) is

      (∑ d, max (x[b, t, d] + y[b, u, d]) 0 · W[v, d]) + bias[v].

  Both programs multiply x and y by the weight 1 first; on the extended reals 1 · a = a for every a, the
  infinities included, so the weights do not appear here. The only sum is the contraction over d, the same
  sum on both sides, so no law that needs finite operands is used.
-/
import Idealize.ShloMosaic.PureOps.Ideal
import Idealize.ShloMosaic.PureOps.Ideal.Laws
import Idealize.ShloMosaic.Lib.ValueIdx

noncomputable section

namespace Cert.Joiner

open Idealize.ShloMosaic Idealize.ShloMosaic.ValueIdx

/-! ## The literals the two programs spell: 1 and 0, in bf16 and in f32 -/

/-- The bf16 pattern 0x3F80 (sign 0, exponent 127, fraction 0) denotes 1. -/
theorem one_bf16 : Ideal.ofBits .bf16 0x3F80#16 = 1 := by
  simp [Ideal.ofBits, Ideal.ieee, -EReal.coe_mul]; norm_num

/-- The bf16 pattern 0x0000 denotes 0. -/
theorem zero_bf16 : Ideal.ofBits .bf16 0x0000#16 = 0 := by
  simp [Ideal.ofBits, Ideal.ieee]

/-- The f32 pattern 0x3F800000 (sign 0, exponent 127, fraction 0) denotes 1. -/
theorem one_f32 : Ideal.ofBits .f32 0x3F800000#32 = 1 := by
  simp [Ideal.ofBits, Ideal.ieee, -EReal.coe_mul]; norm_num

/-! ## One entry of the result -/

/-- One entry from the row of x, the row of y, the row of W it contracts with, and the bias entry:
    the rectified sum of the two rows, contracted with the weights' row, plus the bias. -/
def entry (xr yr wr : Fin 512 → EReal) (bv : EReal) : EReal :=
  (∑ d : Fin 512, max (xr d + yr d) 0 * wr d) + bv

/-- The whole result: entry (b, t, u, v) reads row (b, t) of x, row (b, u) of y, row v of W and bias v. -/
def result (x : (⟨3, ![8, 256, 512]⟩ : Shape).Idx → EReal) (y : (⟨3, ![8, 64, 512]⟩ : Shape).Idx → EReal)
    (W : (⟨2, ![1024, 512]⟩ : Shape).Idx → EReal) (bias : (⟨1, ![1024]⟩ : Shape).Idx → EReal) :
    (⟨4, ![8, 256, 64, 1024]⟩ : Shape).Idx → EReal := fun i =>
  entry (fun d => x (ix3 (i 0) (i 1) d)) (fun d => y (ix3 (i 0) (i 2) d)) (fun d => W (ix2 (i 3) d)) (bias (ix1 (i 3)))

end Cert.Joiner

end
-- ==== Proof.RefSpec.lean ====
/-
  The reference computes `Cert.Joiner.result`.

  Its last stage is the sum of a contraction and a broadcast bias. Read at an index (b, t, u, v), the contraction is
  the sum over d of the rectified entry at (b, t, u, d) times W[v, d]; the rectified entry is
  max (1 · x[b, t, d] + 1 · y[b, u, d]) 0, each factor reached through two broadcasts that keep the coordinates they
  name; and the bias is bias[v], reached through two broadcasts that keep the last coordinate. With 1 · a = a this is
  the entry of `result`.
-/
import proofs.«166471_j4844723109998_2_alg».proof.Proof.Gen.ReferenceIdeal.Read
import proofs.«166471_j4844723109998_2_alg».proof.Proof.Spec

noncomputable section

namespace Cert.Joiner.Ref

open Cert.ReferenceIdeal Cert.ReferenceIdeal.Read Idealize.ShloMosaic Idealize.ShloMosaic.ValueIdx

/-- Through the two broadcasts of x, entry (b, t, u, d) reads x at (b, t, d). -/
theorem x_index (i : S8x256x64x1024.Idx) (k : Fin 512) :
    idx_main_v0 (idx_main_v6 (lidx_main_v10 i k)) = ix3 (i 0) (i 1) k :=
  funext fun a => Fin.ext (by match a with | ⟨0, _⟩ => rfl | ⟨1, _⟩ => rfl | ⟨2, _⟩ => rfl)

/-- Through the two broadcasts of y, entry (b, t, u, d) reads y at (b, u, d). -/
theorem y_index (i : S8x256x64x1024.Idx) (k : Fin 512) :
    idx_main_v3 (idx_main_v7 (lidx_main_v10 i k)) = ix3 (i 0) (i 2) k :=
  funext fun a => Fin.ext (by match a with | ⟨0, _⟩ => rfl | ⟨1, _⟩ => rfl | ⟨2, _⟩ => rfl)

/-- The contraction's right operand at (b, t, u, v) and d is W at (v, d). -/
theorem w_index (i : S8x256x64x1024.Idx) (k : Fin 512) : ridx_main_v10 i k = ix2 (i 3) k :=
  funext fun a => Fin.ext (by match a with | ⟨0, _⟩ => rfl | ⟨1, _⟩ => rfl)

/-- Through the two broadcasts of the bias, entry (b, t, u, v) reads it at v. -/
theorem b_index (i : S8x256x64x1024.Idx) : idx_main_v11 (idx_main_v12 i) = ix1 (i 3) :=
  funext fun a => Fin.ext (by match a with | ⟨0, _⟩ => rfl)

/-- The rectified entry the contraction sums over. -/
theorem relu_apply (x : (⟨S8x256x512, .f32⟩ : BufTy).Contents (Elt Ideal)) (y : (⟨S8x64x512, .f32⟩ : BufTy).Contents (Elt Ideal))
    (i : S8x256x64x1024.Idx) (k : Fin 512) :
    val_main_v9 (F := Ideal) x y (lidx_main_v10 i k) = max (x (ix3 (i 0) (i 1) k) + y (ix3 (i 0) (i 2) k)) 0 := by
  rw [val_main_v9_apply, val_main_v8_apply, val_main_v6_apply, val_main_v2_apply, val_main_v1_apply, val_main_cst_apply,
    val_main_v0_apply, val_main_v7_apply, val_main_v5_apply, val_main_v4_apply, val_main_cst_0_apply, val_main_v3_apply,
    val_main_call0_v0_apply, val_main_call0_cst_apply, x_index, y_index]
  simp only [Ideal.ofBits_def, Ideal.addf_def, Ideal.mulf_def, Ideal.maximumf_def, Cert.Joiner.one_f32, Ideal.ofBits_zero_f32,
    one_mul]
  rfl

/-- The reference's last stage is `result` of the four arguments. -/
theorem ref_eq (x : (⟨S8x256x512, .f32⟩ : BufTy).Contents (Elt Ideal)) (y : (⟨S8x64x512, .f32⟩ : BufTy).Contents (Elt Ideal))
    (W : (⟨S1024x512, .f32⟩ : BufTy).Contents (Elt Ideal)) (bias : (⟨S1024, .f32⟩ : BufTy).Contents (Elt Ideal)) :
    val_main_v13 (F := Ideal) x y W bias = Cert.Joiner.result x y W bias := by
  funext i
  rw [val_main_v13_apply, val_main_v10_apply, val_main_v12_apply, val_main_v11_apply, b_index]
  unfold Cert.Joiner.result Cert.Joiner.entry
  rw [Ideal.addf_def]
  refine congrArg (· + bias (ix1 (i 3))) (Finset.sum_congr rfl fun k _ => ?_)
  rw [relu_apply, w_index]
  rfl

end Cert.Joiner.Ref

end
-- ==== Proof.Payload.lean ====
/-
  The body's two computed values, read at an index, over the extended reals.

  The scratch buffer receives the rectified sums: row r = 64 · t + u of [2048, 512] is
  max (1 · x[0, t, ·] + 1 · y[0, u, ·]) 0, the rows of x's block [1, 32, 512] and of y's block [1, 64, 512] paired
  by the row-major position of (t, u) in [32, 64]. On the extended reals 1 · a = a.

  Each of the four output stores takes 512 scratch rows h : [512, 512], multiplies them with the weights
  w : [512, 1024] into a zero accumulator and adds the bias row; read at (0, tt, u, v) of [1, 8, 64, 1024] that is
  (∑ d, h[64 · tt + u, d] · w[d, v]) + bias[0, v]: the product summed over the one contracted axis, the row again
  the row-major position of (tt, u) in [8, 64].
-/
import proofs.«166471_j4844723109998_2_alg».proof.Proof.Gen.KernelIdeal.Skeleton
import proofs.«166471_j4844723109998_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.Joiner.Body

open Cert.KernelIdeal Cert.KernelIdeal.Gen Idealize.ShloMosaic Idealize.ShloMosaic.ValueIdx

/-! ## The rectified rows -/

/-- The weighted row of x spread over u: at (t, u, d) it is x[0, t, d]. -/
theorem xpart_apply (x0 : Vec Ideal S1x32x512 .f32) (t : Fin 32) (u : Fin 64) (d : Fin 512) :
    broadcastTo S32x64x512
        (shapeCast S32x1x512
          (mulf (broadcast S32x512 (Scalar.ofBits (F := Ideal) .bf16 0x3F80#16))
            (truncf .bf16 (shapeCast S32x512 x0 shapeCasts_S1x32x512_S32x512) bitsLt_bf16_f32))
          shapeCasts_S32x512_S32x1x512)
        broadcasts_S32x1x512_S32x64x512 (ix3 t u d)
      = x0 (ix3 (0 : Fin 1) t d) := by
  refine (broadcastTo_apply _ _ (ix3 t u d) (ix3 t (0 : Fin 1) d) fun a => ?_).trans ?_
  · match a with
    | ⟨0, _⟩ => rfl
    | ⟨1, _⟩ => rfl
    | ⟨2, _⟩ => rfl
  refine (shapeCast_apply _ _ (ix3 t (0 : Fin 1) d) (ix2 t d) ?_).trans ?_
  · rw [Shape.rowMajor_val_two, Shape.rowMajor_val_three]
    show t.val * 512 + d.val = (t.val * 1 + 0) * 512 + d.val
    omega
  show Ideal.ofBits .bf16 0x3F80#16 * shapeCast S32x512 x0 shapeCasts_S1x32x512_S32x512 (ix2 t d) = _
  rw [Cert.Joiner.one_bf16, one_mul]
  exact shapeCast_1ab_ab_apply x0 _ t d

/-- The weighted row of y spread over t: at (t, u, d) it is y[0, u, d]. -/
theorem ypart_apply (x1 : Vec Ideal S1x64x512 .f32) (t : Fin 32) (u : Fin 64) (d : Fin 512) :
    broadcastTo S32x64x512
        (shapeCast S1x64x512
          (mulf (broadcast S64x512 (Scalar.ofBits (F := Ideal) .bf16 0x3F80#16))
            (truncf .bf16 (shapeCast S64x512 x1 shapeCasts_S1x64x512_S64x512) bitsLt_bf16_f32))
          shapeCasts_S64x512_S1x64x512)
        broadcasts_S1x64x512_S32x64x512 (ix3 t u d)
      = x1 (ix3 (0 : Fin 1) u d) := by
  refine (broadcastTo_apply _ _ (ix3 t u d) (ix3 (0 : Fin 1) u d) fun a => ?_).trans ?_
  · match a with
    | ⟨0, _⟩ => rfl
    | ⟨1, _⟩ => rfl
    | ⟨2, _⟩ => rfl
  refine (shapeCast_ab_1ab_apply _ _ (0 : Fin 1) u d).trans ?_
  show Ideal.ofBits .bf16 0x3F80#16 * shapeCast S64x512 x1 shapeCasts_S1x64x512_S64x512 (ix2 u d) = _
  rw [Cert.Joiner.one_bf16, one_mul]
  exact shapeCast_1ab_ab_apply x1 _ u d

/-- Row r = 64 · t + u of what the scratch buffer receives is the rectified sum of row t of x's block and row u of
    y's block. -/
theorem scratch_apply (x0 : Vec Ideal S1x32x512 .f32) (x1 : Vec Ideal S1x64x512 .f32) (r : Fin 2048) (d : Fin 512)
    (t : Fin 32) (u : Fin 64) (hr : r.val = t.val * 64 + u.val) :
    k0_pay1 (F := Ideal) x0 x1 (ix2 r d) = max (x0 (ix3 (0 : Fin 1) t d) + x1 (ix3 (0 : Fin 1) u d)) 0 := by
  unfold k0_pay1
  refine (congrFun (shapeCast_self _ _) _).trans ?_
  refine (shapeCast_apply _ _ (ix2 r d) (ix3 t u d) ?_).trans ?_
  · rw [Shape.rowMajor_val_three, Shape.rowMajor_val_two]
    show (t.val * 64 + u.val) * 512 + d.val = r.val * 512 + d.val
    rw [hr]
  show max (_ + _) (Ideal.ofBits .bf16 0x0000#16) = _
  rw [Cert.Joiner.zero_bf16, xpart_apply, ypart_apply]

/-! ## One chunk's store -/

/-- The matmul's left operand at output (r, v) and contraction index q is at row r; -/
theorem lhs_row (i : S512x1024.Idx) (q : dot_S512x512_S512x1024_S512x1024_1_0_0_1_n_n.contr.Idx) :
    (dot_S512x512_S512x1024_S512x1024_1_0_0_1_n_n.lhsIdx i q 0).val = (i 0).val := by
  unfold DotDims.lhsIdx
  rw [dif_neg (show ¬(0 : Fin S512x512.rank) ∈ dot_S512x512_S512x1024_S512x1024_1_0_0_1_n_n.lhsBatch by decide),
    dif_pos (show (0 : Fin S512x512.rank) ∈ dot_S512x512_S512x1024_S512x1024_1_0_0_1_n_n.lhsNonContracting by decide)]
  rfl

/-- its right operand is at column v. -/
theorem rhs_col (i : S512x1024.Idx) (q : dot_S512x512_S512x1024_S512x1024_1_0_0_1_n_n.contr.Idx) :
    (dot_S512x512_S512x1024_S512x1024_1_0_0_1_n_n.rhsIdx i q 1).val = (i 1).val := by
  unfold DotDims.rhsIdx
  rw [dif_neg (show ¬(1 : Fin S512x1024.rank) ∈ dot_S512x512_S512x1024_S512x1024_1_0_0_1_n_n.rhsBatch by decide),
    dif_pos (show (1 : Fin S512x1024.rank) ∈ dot_S512x512_S512x1024_S512x1024_1_0_0_1_n_n.rhsNonContracting by decide)]
  rfl

/-- The product into the zero accumulator, at (r, v): the sum over d of h[r, d] · w[d, v]. -/
theorem matmul_apply (h : FVec Ideal S512x512 .bf16) (w : FVec Ideal S512x1024 .bf16) (r : Fin 512) (v : Fin 1024) :
    matmul dot_S512x512_S512x1024_S512x1024_1_0_0_1_n_n none h w (constant (F := Ideal) S512x1024 .f32 0x00000000#32) (ix2 r v)
      = ∑ d : Fin 512, h (ix2 r d) * w (ix2 d v) := by
  simp only [matmul]
  rw [Ideal.matmul_constant_zero_apply,
    ← Equiv.sum_comp (contrEquiv1 dot_S512x512_S512x1024_S512x1024_1_0_0_1_n_n 512 rfl rfl).symm]
  refine Finset.sum_congr rfl fun k _ => ?_
  have hk := contrEquiv1_symm_val dot_S512x512_S512x1024_S512x1024_1_0_0_1_n_n 512 rfl rfl k
  have el : dot_S512x512_S512x1024_S512x1024_1_0_0_1_n_n.lhsIdx (ix2 r v)
      ((contrEquiv1 dot_S512x512_S512x1024_S512x1024_1_0_0_1_n_n 512 rfl rfl).symm k) = ix2 r k :=
    funext fun a => Fin.ext (by
      match a with
      | ⟨0, _⟩ => exact lhs_row _ _
      | ⟨1, _⟩ => exact (dot_S512x512_S512x1024_S512x1024_1_0_0_1_n_n.lhsIdx_val_of_single rfl _ _).trans hk)
  have er : dot_S512x512_S512x1024_S512x1024_1_0_0_1_n_n.rhsIdx (ix2 r v)
      ((contrEquiv1 dot_S512x512_S512x1024_S512x1024_1_0_0_1_n_n 512 rfl rfl).symm k) = ix2 k v :=
    funext fun a => Fin.ext (by
      match a with
      | ⟨0, _⟩ => exact (dot_S512x512_S512x1024_S512x1024_1_0_0_1_n_n.rhsIdx_val_of_single rfl _ _).trans hk
      | ⟨1, _⟩ => exact rhs_col _ _)
  rw [el, er]

/-- One chunk's store at (0, tt, u, v): scratch row 64 · tt + u of the chunk contracted with column v of the
    weights, plus the bias at v. -/
theorem chunk_apply (bv : FVec Ideal S1x1024 .f32) (h : FVec Ideal S512x512 .bf16) (w : FVec Ideal S512x1024 .bf16)
    (tt : Fin 8) (u : Fin 64) (v : Fin 1024) (r : Fin 512) (hr : r.val = tt.val * 64 + u.val) :
    k0_pay4 (F := Ideal) bv h w (ix4 (0 : Fin 1) tt u v)
      = (∑ d : Fin 512, h (ix2 r d) * w (ix2 d v)) + bv (ix2 (0 : Fin 1) v) := by
  unfold k0_pay4
  refine (shapeCast_abc_1abc_apply _ _ (0 : Fin 1) tt u v).trans ?_
  refine (shapeCast_apply _ _ (ix3 tt u v) (ix2 r v) ?_).trans ?_
  · rw [Shape.rowMajor_val_three, Shape.rowMajor_val_two]
    show r.val * 1024 + v.val = (tt.val * 64 + u.val) * 1024 + v.val
    rw [hr]
  rw [shapeCast_self]
  show matmul dot_S512x512_S512x1024_S512x1024_1_0_0_1_n_n none h w (constant (F := Ideal) S512x1024 .f32 0x00000000#32) (ix2 r v)
    + broadcastTo S512x1024 bv broadcasts_S1x1024_S512x1024 (ix2 r v) = _
  rw [matmul_apply, broadcastTo_1b_ab_apply]

/-- The first chunk's payload is the others' with the bias row's identity cast spelt inside it. -/
theorem pay3_eq {F : FTy → Type} [FloatOps F] (v21 : Vec F S1x1024 .f32) (h : Vec F S512x512 .bf16) (w : Vec F S512x1024 .bf16) :
    k0_pay3 v21 h w = k0_pay4 (k0_pay2 v21) h w := rfl

theorem pay5_eq {F : FTy → Type} [FloatOps F] (bv : FVec F S1x1024 .f32) (h : Vec F S512x512 .bf16) (w : Vec F S512x1024 .bf16) :
    k0_pay5 bv h w = k0_pay4 bv h w := rfl

theorem pay6_eq {F : FTy → Type} [FloatOps F] (bv : FVec F S1x1024 .f32) (h : Vec F S512x512 .bf16) (w : Vec F S512x1024 .bf16) :
    k0_pay6 bv h w = k0_pay4 bv h w := rfl

/-- The bias row passes through an identity cast. -/
theorem pay2_eq {F : FTy → Type} [FloatOps F] (v21 : Vec F S1x1024 .f32) : k0_pay2 v21 = v21 := by
  unfold k0_pay2
  exact shapeCast_self _ _

end Cert.Joiner.Body

end
-- ==== Proof.Block.lean ====
/-
  What the body leaves in the output block, as one function of its four input blocks.

  The body stores the block [1, 32, 64, 1024] in four pieces of eight t-rows each. Piece c (rows 8c … 8c + 7) is the
  product of scratch rows 512c … 512c + 511 with the weights, plus the bias row; the scratch rows were stored whole
  just before, so a load of 512 of them reads the rectified sums at those rows. Scratch row 512c + 64 · tt + u is row
  64 · (8c + tt) + u, the rectified sum of x's row 8c + tt and y's row u. So every piece is the restriction of ONE
  function of the block index (0, t, u, v):

      (∑ d, max (x[0, t, d] + y[0, u, d]) 0 · w[d, v]) + bias[0, v],

  and the four pieces tile the block, so the block holds that function everywhere.
-/
import proofs.«166471_j4844723109998_2_alg».proof.Proof.Gen.KernelIdeal.Frame
import proofs.«166471_j4844723109998_2_alg».proof.Proof.Payload
import Idealize.ShloMosaic.Lib.Pipeline.Value
import Idealize.ShloMosaic.Lib.Tactic

set_option maxRecDepth 16384

noncomputable section

namespace Cert.Joiner.Block

open Cert.KernelIdeal Cert.KernelIdeal.Gen Idealize.ShloMosaic Idealize.ShloMosaic.TcCoe Idealize.SL.Sem
open Idealize.ShloMosaic.ValueIdx

theorem hz2 : (![0, 0] : Fin 2 → Nat) = fun _ => 0 := funext fun a => by fin_cases a <;> rfl
theorem hz3 : (![0, 0, 0] : Fin 3 → Nat) = fun _ => 0 := funext fun a => by fin_cases a <;> rfl

/-- The output block as a function of the four input blocks: entry (0, t, u, v) from row t of x's block, row u of
    y's block, column v of the weights and the bias at v. -/
def blockEntry (x0 : Vec Ideal S1x32x512 .f32) (x1 : Vec Ideal S1x64x512 .f32) (x2 : Vec Ideal S512x1024 .bf16)
    (x3 : Vec Ideal S1x1024 .f32) : S1x32x64x1024.Idx → EReal := fun y =>
  Cert.Joiner.entry (fun d => x0 (ix3 (0 : Fin 1) (y 1) d)) (fun d => x1 (ix3 (0 : Fin 1) (y 2) d))
    (fun d => x2 (ix2 d (y 3))) (x3 (ix2 (0 : Fin 1) (y 3)))

/-- A load of any rectangle of the scratch buffer after its one whole store reads the stored rows there. -/
theorem scratch_read {sig : RefSig} {κ : Kind} {sp : Space} (v : View sig κ sp S2048x512 .bf16)
    (H : S2048x512.Idx → Elt Ideal .bf16) (B : LoadRect S2048x512) :
    v.readCov [(⟨Rect.unit ![0, 0] S2048x512.size inb_S2048x512_S2048x512_0_0, H⟩ : View.Piece (Elt Ideal) S2048x512 .bf16)] B
      = fun j => H (B.idx j) := by
  rw [View.readCov_eq_canon', View.canon_unit_zero hz2]

/-- Row r of a 512-row load at row offset s is scratch row s + r. -/
theorem scratch_row (s : Nat) (inbS : ∀ a, (![s, 0] : Fin 2 → Nat) a + S512x512.size a ≤ S2048x512.size a)
    (r : Fin 512) (d : Fin 512) (hlt : s + r.val < 2048) :
    (Rect.unit (s := S2048x512) ![s, 0] S512x512.size inbS).toLoadRect.idx (ix2 r d) = ix2 (⟨s + r.val, hlt⟩ : Fin 2048) d :=
  funext fun b => Fin.ext (by
    match b with
    | ⟨0, _⟩ => show s + 1 * r.val = s + r.val; omega
    | ⟨1, _⟩ => show 0 + 1 * d.val = d.val; omega)

/-- Piece `o / 8` of the output block (t-rows o … o + 7), computed from 512 rows `h` that are scratch rows
    s … s + 511 with s = 64 · o, restricts `blockEntry`. -/
theorem piece_apply (x0 : Vec Ideal S1x32x512 .f32) (x1 : Vec Ideal S1x64x512 .f32) (x2 : Vec Ideal S512x1024 .bf16)
    (x3 : Vec Ideal S1x1024 .f32) (o s : Nat) (hs : s = 64 * o)
    (inbO : ∀ a, (![0, o, 0, 0] : Fin 4 → Nat) a + S1x8x64x1024.size a ≤ S1x32x64x1024.size a)
    (h : FVec Ideal S512x512 .bf16)
    (hh : ∀ (r : Fin 512) (d : Fin 512) (hlt : s + r.val < 2048),
      h (ix2 r d) = k0_pay1 (F := Ideal) x0 x1 (ix2 (⟨s + r.val, hlt⟩ : Fin 2048) d))
    (x : S1x8x64x1024.Idx) :
    k0_pay4 (F := Ideal) x3 h x2 x
      = blockEntry x0 x1 x2 x3 ((Rect.unit (s := S1x32x64x1024) ![0, o, 0, 0] S1x8x64x1024.size inbO).emb x) := by
  have ho : o + 8 ≤ 32 := inbO 1
  obtain ⟨a, tt, u, v, rfl⟩ : ∃ (a : Fin 1) (tt : Fin 8) (u : Fin 64) (v : Fin 1024), x = ix4 a tt u v :=
    ⟨x 0, x 1, x 2, x 3, eq_ix4 x⟩
  obtain rfl : a = 0 := Subsingleton.elim _ _
  have htt : tt.val < 8 := tt.isLt
  have hu : u.val < 64 := u.isLt
  refine (Body.chunk_apply x3 _ x2 tt u v ⟨tt.val * 64 + u.val, by omega⟩ rfl).trans ?_
  unfold blockEntry Cert.Joiner.entry
  refine congrArg₂ (· + ·) (Finset.sum_congr rfl fun d _ => congrArg₂ (· * ·) ?_ ?_) ?_
  · -- the scratch row under the piece's row is the rectified sum of the rows under the block index
    refine (hh ⟨tt.val * 64 + u.val, by omega⟩ d (by show s + (tt.val * 64 + u.val) < 2048; omega)).trans ?_
    refine (Body.scratch_apply x0 x1 _ d ⟨o + tt.val, by omega⟩ u (by show s + (tt.val * 64 + u.val) = (o + tt.val) * 64 + u.val; omega)).trans ?_
    refine congrArg₂ max (congrArg₂ (· + ·) (congrArg x0 ?_) (congrArg x1 ?_)) rfl
    · exact funext fun b => Fin.ext (by
        match b with
        | ⟨0, _⟩ => rfl
        | ⟨1, _⟩ => show o + tt.val = o + 1 * tt.val; omega
        | ⟨2, _⟩ => rfl)
    · exact funext fun b => Fin.ext (by
        match b with
        | ⟨0, _⟩ => rfl
        | ⟨1, _⟩ => show u.val = 0 + 1 * u.val; omega
        | ⟨2, _⟩ => rfl)
  · exact congrArg x2 (funext fun b => Fin.ext (by
      match b with
      | ⟨0, _⟩ => rfl
      | ⟨1, _⟩ => show v.val = 0 + 1 * v.val; omega))
  · exact congrArg x3 (funext fun b => Fin.ext (by
      match b with
      | ⟨0, _⟩ => rfl
      | ⟨1, _⟩ => show v.val = 0 + 1 * v.val; omega))

/-- The same for the rows as the body obtains them: a 512-row load of the scratch buffer, at row offset s, after the
    one store that filled it. -/
theorem piece_of_load (x0 : Vec Ideal S1x32x512 .f32) (x1 : Vec Ideal S1x64x512 .f32) (x2 : Vec Ideal S512x1024 .bf16)
    (x3 : Vec Ideal S1x1024 .f32) (o s : Nat) (hs : s = 64 * o)
    (inbO : ∀ a, (![0, o, 0, 0] : Fin 4 → Nat) a + S1x8x64x1024.size a ≤ S1x32x64x1024.size a)
    (inbS : ∀ a, (![s, 0] : Fin 2 → Nat) a + S512x512.size a ≤ S2048x512.size a)
    (v : View sig .tc .vmem S2048x512 .bf16) (x : S1x8x64x1024.Idx) :
    k0_pay4 (F := Ideal) x3
        (v.readCov [(⟨Rect.unit ![0, 0] S2048x512.size inb_S2048x512_S2048x512_0_0, k0_pay1 (F := Ideal) x0 x1⟩ : View.Piece (Elt Ideal) S2048x512 .bf16)]
          (Rect.unit (s := S2048x512) ![s, 0] S512x512.size inbS).toLoadRect)
        x2 x
      = blockEntry x0 x1 x2 x3 ((Rect.unit (s := S1x32x64x1024) ![0, o, 0, 0] S1x8x64x1024.size inbO).emb x) :=
  piece_apply x0 x1 x2 x3 o s hs inbO
    (v.readCov [(⟨Rect.unit ![0, 0] S2048x512.size inb_S2048x512_S2048x512_0_0, k0_pay1 (F := Ideal) x0 x1⟩ : View.Piece (Elt Ideal) S2048x512 .bf16)]
      (Rect.unit (s := S2048x512) ![s, 0] S512x512.size inbS).toLoadRect)
    (fun r d hlt =>
      (congrFun (scratch_read v (k0_pay1 (F := Ideal) x0 x1) (Rect.unit (s := S2048x512) ![s, 0] S512x512.size inbS).toLoadRect) (ix2 r d)).trans
        (congrArg (k0_pay1 (F := Ideal) x0 x1) (scratch_row s inbS r d hlt)))
    x

/-- Every piece the body's run found for the output block restricts `blockEntry` of the input blocks. -/
theorem pieces_spec (c : Dev nD) (i : grid0.Coords) (arg2 : Memref sig .tc .vmem S1x32x512 .f32) (harg2 : arg2.IsWhole) (arg3 : Memref sig .tc .vmem S1x64x512 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x32x64x1024 .f32) (harg6 : arg6.IsWhole) (arg7 : Memref sig .tc .vmem S2048x512 .bf16) (harg7 : arg7.IsWhole)
    (x0 : Vec Ideal S1x32x512 .f32) (x1 : Vec Ideal S1x64x512 .f32) (x2 : Vec Ideal S512x1024 .bf16) (x3 : Vec Ideal S1x1024 .f32) :
    ∀ p ∈ (kernelRun0_A (F := Ideal) c i arg2 harg2 arg3 harg3 arg4 harg4 arg5 harg5 arg6 harg6 arg7 harg7 x0 x1 x2 x3).1,
      ∀ x : p.1.shape.Idx, p.2 x = blockEntry x0 x1 x2 x3 (p.1.emb x) := by
  unfold kernelRun0_A
  dsimp only
  sl_unfold_words
  simp only [View.readAt_eq_ld, harg2.read_unread, harg3.read_unread, harg4.read_unread, harg5.read_unread,
    View.ld_unit_zero (S := S1x32x512) hz3, View.ld_unit_zero (S := S1x64x512) hz3, View.ld_unit_zero (S := S512x1024) hz2,
    View.ld_unit_zero (S := S1x1024) hz2, Body.pay3_eq, Body.pay5_eq, Body.pay6_eq, Body.pay2_eq]
  intro pc hpc x
  rcases List.mem_cons.mp hpc with rfl | hpc
  · exact piece_of_load x0 x1 x2 x3 24 1536 rfl inb_S1x32x64x1024_S1x8x64x1024_0_24_0_0 inb_S2048x512_S512x512_1536_0 arg7.view x
  rcases List.mem_cons.mp hpc with rfl | hpc
  · exact piece_of_load x0 x1 x2 x3 16 1024 rfl inb_S1x32x64x1024_S1x8x64x1024_0_16_0_0 inb_S2048x512_S512x512_1024_0 arg7.view x
  rcases List.mem_cons.mp hpc with rfl | hpc
  · exact piece_of_load x0 x1 x2 x3 8 512 rfl inb_S1x32x64x1024_S1x8x64x1024_0_8_0_0 inb_S2048x512_S512x512_512_0 arg7.view x
  rcases List.mem_cons.mp hpc with rfl | hpc
  · exact piece_of_load x0 x1 x2 x3 0 0 rfl inb_S1x32x64x1024_S1x8x64x1024_0_0_0_0 inb_S2048x512_S512x512_0_0 arg7.view x
  nomatch hpc

/-- The output block after the body is `blockEntry` of the input blocks. -/
theorem block_eq (c : Dev nD) (i : grid0.Coords) (arg2 : Memref sig .tc .vmem S1x32x512 .f32) (harg2 : arg2.IsWhole) (arg3 : Memref sig .tc .vmem S1x64x512 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x32x64x1024 .f32) (harg6 : arg6.IsWhole) (arg7 : Memref sig .tc .vmem S2048x512 .bf16) (harg7 : arg7.IsWhole)
    (x0 : Vec Ideal S1x32x512 .f32) (x1 : Vec Ideal S1x64x512 .f32) (x2 : Vec Ideal S512x1024 .bf16) (x3 : Vec Ideal S1x1024 .f32) :
    out0_A_4 (F := Ideal) c i arg2 harg2 arg3 harg3 arg4 harg4 arg5 harg5 arg6 harg6 arg7 harg7 x0 x1 x2 x3
      = blockEntry x0 x1 x2 x3 := by
  funext y
  unfold out0_A_4
  exact (View.read_writes_apply_eq_canon _ _ y _ (cover0_A_4 c i arg2 harg2 arg3 harg3 arg4 harg4 arg5 harg5 arg6 harg6 arg7 harg7 x0 x1 x2 x3 y)).trans
    (View.canon_apply_of_pieces _ _ (pieces_spec c i arg2 harg2 arg3 harg3 arg4 harg4 arg5 harg5 arg6 harg6 arg7 harg7 x0 x1 x2 x3) y
      (cover0_A_4 c i arg2 harg2 arg3 harg3 arg4 harg4 arg5 harg5 arg6 harg6 arg7 harg7 x0 x1 x2 x3 y))

end Cert.Joiner.Block

end
-- ==== Proof.Array.lean ====
/-
  From the blocks to the whole result array.

  Grid point (b, ti) of the 8 × 8 grid stages block (b, ti) of x (32 t-rows), block b of y, the whole transposed
  weights and the whole bias row, and writes back block (b, ti) of the result: t-rows 32 · ti … 32 · ti + 31 of
  batch b. The transposed weights at (d, v) are W[v, d], and the bias row at (0, v) is bias[v]. So what a point
  writes back is its block of `Cert.Joiner.result` of the four arguments; the 64 blocks tile the result array (the
  point covering (b, t, u, v) is (b, t / 32)), so the array ends holding `result`.
-/
import proofs.«166471_j4844723109998_2_alg».proof.Proof.Gen.KernelIdeal.Value
import proofs.«166471_j4844723109998_2_alg».proof.Proof.Block
import Idealize.ShloMosaic.Lib.Pipeline.Value
import Idealize.ShloMosaic.Lib.ValueLayout
import Idealize.ShloMosaic.Lib.StableHlo.Run

set_option maxRecDepth 16384

noncomputable section

namespace Cert.Joiner.Kernel

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-! ## The two arrays the host prepares before the region -/

/-- The weights as the region finds them: W transposed (the change of format is the identity). -/
theorem weights_eq (c : Dev nD) :
    @Eq (S512x1024.Idx → EReal) (V m c main_v1)
      (truncf (F := Ideal) .bf16 (transpose S512x1024 [1, 0] (m ((c : Thread nD τ).loc main_arg2)) transposes_S1024x512_S512x1024_1_0) bitsLt_bf16_f32) := by
  dsimp only [Gen.V, Gen.hostOps0]
  after_results <;> rfl

/-- The bias as the region finds it: the vector as one row. -/
theorem bias_eq (c : Dev nD) :
    @Eq (S1x1024.Idx → EReal) (V m c main_v2)
      (shapeCast S1x1024 (m ((c : Thread nD τ).loc main_arg3)) shapeCasts_S1024_S1x1024) := by
  dsimp only [Gen.V, Gen.hostOps0]
  after_results <;> rfl

/-- The staged weights at (d, v) are W[v, d]. -/
theorem weights_apply (c : Dev nD) (d : Fin 512) (v : Fin 1024) :
    V m c main_v1 (ix2 d v) = m ((c : Thread nD τ).loc main_arg2) (ix2 v d) := by
  rw [weights_eq]
  exact transpose_ix2_apply _ _ d v

/-- The staged bias row at (0, v) is bias[v]. -/
theorem bias_apply (c : Dev nD) (v : Fin 1024) :
    V m c main_v2 (ix2 (0 : Fin 1) v) = m ((c : Thread nD τ).loc main_arg3) (ix1 v) := by
  rw [bias_eq]
  exact shapeCast_a_1a_apply _ _ (0 : Fin 1) v

/-! ## The result array -/

/-- What the result array ends holding: `result` of the four arguments' launch contents. -/
abbrev arr (c : Dev nD) : Buf (Elt Ideal) ((c : Thread nD τ).loc main_v3) :=
  Cert.Joiner.result (m ((c : Thread nD τ).loc main_arg0)) (m ((c : Thread nD τ).loc main_arg1))
    (m ((c : Thread nD τ).loc main_arg2)) (m ((c : Thread nD τ).loc main_arg3))

/-- The printed index maps, decided over the 64 grid points: x's block moves with the result's on the batch and t
    axes, y's on the batch axis, the weights and the bias stay, and the result's block indices are in range. -/
theorem idx_facts : ∀ t : Fin cfg0.N,
    win0_0.index t (0 : Fin 3) = win0_4.index t (0 : Fin 4)
    ∧ win0_0.index t (1 : Fin 3) = win0_4.index t (1 : Fin 4)
    ∧ win0_0.index t (2 : Fin 3) = 0
    ∧ win0_1.index t (0 : Fin 3) = win0_4.index t (0 : Fin 4)
    ∧ win0_1.index t (1 : Fin 3) = 0
    ∧ win0_1.index t (2 : Fin 3) = 0
    ∧ win0_2.index t (0 : Fin 2) = 0
    ∧ win0_2.index t (1 : Fin 2) = 0
    ∧ win0_3.index t (0 : Fin 2) = 0
    ∧ win0_3.index t (1 : Fin 2) = 0
    ∧ win0_4.index t (2 : Fin 4) = 0
    ∧ win0_4.index t (3 : Fin 4) = 0
    ∧ win0_4.index t (0 : Fin 4) < 8
    ∧ win0_4.index t (1 : Fin 4) < 8 :=
  (by decide +kernel : ∀ t : Fin grid0.N, _)

/-- Every block of the result is some point's. -/
theorem idx_onto : ∀ (q0 : Fin 8) (q1 : Fin 8), ∃ t : Fin cfg0.N, win0_4.index t = ![q0.val, q1.val, 0, 0] :=
  (by decide +kernel : ∀ (q0 : Fin 8) (q1 : Fin 8), ∃ t : Fin grid0.N, win0_4.index t = ![q0.val, q1.val, 0, 0])

/-! ## Each input block, read where the result's block says -/

/-- Row tl of x's block at point t is x's row under the result block's index. -/
theorem xblk_read (c : Dev nD) (t : Fin cfg0.N) (tl : Fin 32) (d : Fin 512) (i : S8x256x512.Idx)
    (h0 : (i 0).val = win0_4.index t (0 : Fin 4)) (h1 : (i 1).val = win0_4.index t (1 : Fin 4) * 32 + tl.val)
    (h2 : (i 2).val = d.val) :
    iblk m c 0 t (ix3 (0 : Fin 1) tl d) = m ((c : Thread nD τ).loc main_arg0) i := by
  obtain ⟨e00, e01, e02, -⟩ := idx_facts t
  refine Eq.trans ?_ (congrFun (V_main_arg0 m c) i)
  show V m c main_arg0 (((cfg0.win 0).blk t).view.emb (ix3 (0 : Fin 1) tl d)) = V m c main_arg0 i
  refine congrArg (V m c main_arg0) (funext fun a => Fin.ext ?_)
  match a with
  | ⟨0, _⟩ => show win0_0.index t (0 : Fin 3) * 1 + 1 * 0 = (i 0).val; omega
  | ⟨1, _⟩ => show win0_0.index t (1 : Fin 3) * 32 + 1 * tl.val = (i 1).val; omega
  | ⟨2, _⟩ => show win0_0.index t (2 : Fin 3) * 512 + 1 * d.val = (i 2).val; omega

/-- Row u of y's block at point t is y's row in the result block's batch. -/
theorem yblk_read (c : Dev nD) (t : Fin cfg0.N) (u : Fin 64) (d : Fin 512) (i : S8x64x512.Idx)
    (h0 : (i 0).val = win0_4.index t (0 : Fin 4)) (h1 : (i 1).val = u.val) (h2 : (i 2).val = d.val) :
    iblk m c 1 t (ix3 (0 : Fin 1) u d) = m ((c : Thread nD τ).loc main_arg1) i := by
  obtain ⟨-, -, -, e10, e11, e12, -⟩ := idx_facts t
  refine Eq.trans ?_ (congrFun (V_main_arg1 m c) i)
  show V m c main_arg1 (((cfg0.win 1).blk t).view.emb (ix3 (0 : Fin 1) u d)) = V m c main_arg1 i
  refine congrArg (V m c main_arg1) (funext fun a => Fin.ext ?_)
  match a with
  | ⟨0, _⟩ => show win0_1.index t (0 : Fin 3) * 1 + 1 * 0 = (i 0).val; omega
  | ⟨1, _⟩ => show win0_1.index t (1 : Fin 3) * 64 + 1 * u.val = (i 1).val; omega
  | ⟨2, _⟩ => show win0_1.index t (2 : Fin 3) * 512 + 1 * d.val = (i 2).val; omega

/-- The weights' block is the whole transposed array: at (d, v) it is W[v, d]. -/
theorem wblk_read (c : Dev nD) (t : Fin cfg0.N) (d : Fin 512) (v : Fin 1024) :
    iblk m c 2 t (ix2 d v) = m ((c : Thread nD τ).loc main_arg2) (ix2 v d) := by
  obtain ⟨-, -, -, -, -, -, e20, e21, -⟩ := idx_facts t
  refine Eq.trans ?_ (weights_apply m c d v)
  show V m c main_v1 (((cfg0.win 2).blk t).view.emb (ix2 d v)) = V m c main_v1 (ix2 d v)
  refine congrArg (V m c main_v1) (funext fun a => Fin.ext ?_)
  match a with
  | ⟨0, _⟩ => show win0_2.index t (0 : Fin 2) * 512 + 1 * d.val = d.val; omega
  | ⟨1, _⟩ => show win0_2.index t (1 : Fin 2) * 1024 + 1 * v.val = v.val; omega

/-- The bias's block is the whole row: at (0, v) it is bias[v]. -/
theorem bblk_read (c : Dev nD) (t : Fin cfg0.N) (v : Fin 1024) :
    iblk m c 3 t (ix2 (0 : Fin 1) v) = m ((c : Thread nD τ).loc main_arg3) (ix1 v) := by
  obtain ⟨-, -, -, -, -, -, -, -, e30, e31, -⟩ := idx_facts t
  refine Eq.trans ?_ (bias_apply m c v)
  show V m c main_v2 (((cfg0.win 3).blk t).view.emb (ix2 (0 : Fin 1) v)) = V m c main_v2 (ix2 (0 : Fin 1) v)
  refine congrArg (V m c main_v2) (funext fun a => Fin.ext ?_)
  match a with
  | ⟨0, _⟩ => show win0_3.index t (0 : Fin 2) * 1 + 1 * 0 = 0; omega
  | ⟨1, _⟩ => show win0_3.index t (1 : Fin 2) * 1024 + 1 * v.val = v.val; omega

/-! ## What a point writes back -/

/-- The block function of point t's input blocks, at block index j, is `result` at the array index under j. -/
theorem entry_eq (c : Dev nD) (t : Fin cfg0.N) (j : S1x32x64x1024.Idx) :
    Block.blockEntry (iblk m c 0 t) (iblk m c 1 t) (iblk m c 2 t) (iblk m c 3 t) j
      = arr m c (((cfg0.win 4).blk t).view.emb j) := by
  obtain ⟨-, -, -, -, -, -, -, -, -, -, e42, e43, b0, b1⟩ := idx_facts t
  obtain ⟨a, tl, u, v, rfl⟩ : ∃ (a : Fin 1) (tl : Fin 32) (u : Fin 64) (v : Fin 1024), j = ix4 a tl u v :=
    ⟨j 0, j 1, j 2, j 3, eq_ix4 j⟩
  obtain rfl : a = 0 := Subsingleton.elim _ _
  have htl : tl.val < 32 := tl.isLt
  have hi0 : ((((cfg0.win 4).blk t).view.emb (ix4 (0 : Fin 1) tl u v)) 0).val = win0_4.index t (0 : Fin 4) := by
    show win0_4.index t (0 : Fin 4) * 1 + 1 * 0 = _; omega
  have hi1 : ((((cfg0.win 4).blk t).view.emb (ix4 (0 : Fin 1) tl u v)) 1).val = win0_4.index t (1 : Fin 4) * 32 + tl.val := by
    show win0_4.index t (1 : Fin 4) * 32 + 1 * tl.val = _; omega
  have hi2 : ((((cfg0.win 4).blk t).view.emb (ix4 (0 : Fin 1) tl u v)) 2).val = u.val := by
    show win0_4.index t (2 : Fin 4) * 64 + 1 * u.val = _; omega
  have hi3 : ((((cfg0.win 4).blk t).view.emb (ix4 (0 : Fin 1) tl u v)) 3).val = v.val := by
    show win0_4.index t (3 : Fin 4) * 1024 + 1 * v.val = _; omega
  unfold Block.blockEntry arr Cert.Joiner.result Cert.Joiner.entry
  refine congrArg₂ (· + ·) (Finset.sum_congr rfl fun d _ =>
    congrArg₂ (· * ·) (congrArg₂ max (congrArg₂ (· + ·) ?_ ?_) rfl) ?_) ?_
  · exact xblk_read m c t tl d _ hi0 hi1 rfl
  · exact yblk_read m c t u d _ hi0 hi2 rfl
  · refine (wblk_read m c t d v).trans (congrArg (m ((c : Thread nD τ).loc main_arg2)) (funext fun b => Fin.ext ?_))
    match b with
    | ⟨0, _⟩ => exact hi3.symm
    | ⟨1, _⟩ => rfl
  · refine (bblk_read m c t v).trans (congrArg (m ((c : Thread nD τ).loc main_arg3)) (funext fun b => Fin.ext ?_))
    match b with
    | ⟨0, _⟩ => exact hi3.symm

/-- WHAT POINT t WRITES BACK is its block of `result` of the arguments. -/
theorem flushed_eq (c : Dev nD) (t : Fin cfg0.N) :
    (dats m 0 c).flushed 4 t = ((cfg0.win 4).blk t).view.read (Elt Ideal) (arr m c) := by
  rw [flushed4_A m c t,
    Block.block_eq c (grid0.coords t) (ms0_0 t) (hs0_0 t) (ms0_1 t) (hs0_1 t) (ms0_2 t) (hs0_2 t) (ms0_3 t) (hs0_3 t)
      (ms0_4 t) (hs0_4 t) scM0_0 (Memref.isWhole_whole _) (iblk m c 0 t) (iblk m c 1 t) (iblk m c 2 t) (iblk m c 3 t)]
  funext j
  show Block.blockEntry (iblk m c 0 t) (iblk m c 1 t) (iblk m c 2 t) (iblk m c 3 t) j
    = arr m c (((cfg0.win 4).blk t).view.emb j)
  exact entry_eq m c t j

/-! ## The blocks tile the array -/

/-- An index of the array is in point t's block iff each coordinate is in the block's range on its axis. -/
theorem mem_blk (t : Fin cfg0.N) (i : S8x256x64x1024.Idx) :
    i ∈ ((cfg0.win 4).blk t).view.set ↔ ∀ a : Fin 4, win0_4.index t a * S1x32x64x1024.size a ≤ (i a).val
      ∧ (i a).val < win0_4.index t a * S1x32x64x1024.size a + S1x32x64x1024.size a := by
  show i ∈ ((View.whole main_v3).slice (win0_4.rect t)).set ↔ _
  rw [View.set_slice_whole, Rect.mem_set_unit]
  exact Iff.rfl

/-- Every index of the result array is in some point's block: (b, t, u, v) in the block of point (b, t / 32). -/
theorem cover (i : S8x256x64x1024.Idx) :
    ∃ t : Fin cfg0.N, (cfg0.win 4).flush t = true ∧ i ∈ ((cfg0.win 4).blk t).view.set := by
  have hi0 : (i 0).val < 8 := (i 0).isLt
  have hi1 : (i 1).val < 256 := (i 1).isLt
  have hi2 : (i 2).val < 64 := (i 2).isLt
  have hi3 : (i 3).val < 1024 := (i 3).isLt
  obtain ⟨t, ht⟩ := idx_onto ⟨(i 0).val, hi0⟩ ⟨(i 1).val / 32, by omega⟩
  have q0 : win0_4.index t (0 : Fin 4) = (i 0).val := congrFun ht 0
  have q1 : win0_4.index t (1 : Fin 4) = (i 1).val / 32 := congrFun ht 1
  have q2 : win0_4.index t (2 : Fin 4) = 0 := congrFun ht 2
  have q3 : win0_4.index t (3 : Fin 4) = 0 := congrFun ht 3
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 32 ≤ (i 1).val ∧ (i 1).val < win0_4.index t (1 : Fin 4) * 32 + 32; omega
  | ⟨2, _⟩ => show win0_4.index t (2 : Fin 4) * 64 ≤ (i 2).val ∧ (i 2).val < win0_4.index t (2 : Fin 4) * 64 + 64; omega
  | ⟨3, _⟩ => show win0_4.index t (3 : Fin 4) * 1024 ≤ (i 3).val ∧ (i 3).val < win0_4.index t (3 : Fin 4) * 1024 + 1024; omega

/-- THE ARRAY after the run is `result` of the arguments. -/
theorem final (c : Dev nD) : (dats m 0 c).arrAt 4 cfg0.N = arr m c :=
  (dats m 0 c).arrAt_eq_of_cover 4 (arr m c) (fun t _ => flushed_eq m c t) cover

/-- The kernel's run, read: the result array at `result` of the arguments, the arguments unchanged. -/
theorem run : θ_run defs (onTc (τ := τ) (main (F := Ideal))) ⟨m, fun _ => 0, ρ⟩ fun r => ∀ c : Dev nD,
      r.2.mem ((c : Thread nD τ).loc main_v3) = arr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.Joiner.Kernel

end
-- ==== Proof.lean ====
/-
  The joiner's dense layer, out[b, t, u, v] = (∑ d, max (1 · x[b, t, d] + 1 · y[b, u, d]) 0 · W[v, d]) + bias[v],
  computed by a kernel over an 8 × 8 grid (batch × 32-row tiles of t) against the plain array program.

  The frames: each program terminates without a fault and leaves its four arguments as they were (the kernel's two
  readings by their generated frame proofs, the reference's by its generated run).

  preserves: idealizing the kernel rewrote no operation, so there is nothing to state.

  algebraic: over the extended reals both result arrays are `Cert.Joiner.result` of the arguments.
    The kernel at point (b, ti) forms the rectified sums of 32 rows of x with the 64 rows of y in a scratch buffer,
    multiplies them, 512 scratch rows at a time, with the transposed weights and adds the bias row; the four pieces
    it stores are restrictions of one function of the block index (Proof/Block.lean), a point's block is its block of
    `result`, and the 64 blocks tile the array (Proof/Array.lean). The reference's contraction over d and its
    broadcasts read the same entries (Proof/RefSpec.lean). The two sides differ only in how 1 and 0 are spelt (bf16
    and f32 patterns of the same numbers) and in W being transposed beforehand; changes of float format are the
    identity. Both sides form the SAME sum over d, so no rearrangement of a sum and no cancellation is used, and the
    finiteness of the inputs is never needed.
-/
import proofs.«166471_j4844723109998_2_alg».proof.Defs
import proofs.«166471_j4844723109998_2_alg».proof.Proof.Gen.Kernel
import proofs.«166471_j4844723109998_2_alg».proof.Proof.Gen.Kernel.Frame
import proofs.«166471_j4844723109998_2_alg».proof.Proof.Gen.KernelIdeal
import proofs.«166471_j4844723109998_2_alg».proof.Proof.Gen.KernelIdeal.Frame
import proofs.«166471_j4844723109998_2_alg».proof.Proof.Gen.KernelIdeal.Value
import proofs.«166471_j4844723109998_2_alg».proof.Proof.Gen.ReferenceIdeal
import proofs.«166471_j4844723109998_2_alg».proof.Proof.Gen.ReferenceIdeal.Run
import proofs.«166471_j4844723109998_2_alg».proof.Proof.Gen.ReferenceIdeal.Read
import proofs.«166471_j4844723109998_2_alg».proof.Proof.Gen.Pre_finite_inputs
import proofs.«166471_j4844723109998_2_alg».proof.Proof.RefSpec
import proofs.«166471_j4844723109998_2_alg».proof.Proof.Array

noncomputable section

namespace Cert.Proof

open Idealize.ShloMosaic Idealize.SL.Sem

/-- The kernel as printed runs and keeps its arguments. -/
theorem frame_k : Cert.frame_Kernel := fun m ρ _ => Cert.Kernel.Gen.frame m ρ

/-- The kernel read over the extended reals runs and keeps its arguments. -/
theorem frame_ki : Cert.frame_KernelIdeal := fun m ρ _ => Cert.KernelIdeal.Gen.frame m ρ

/-- The reference runs and keeps its arguments: its run, with the result's value dropped. -/
theorem frame_ri : Cert.frame_ReferenceIdeal := fun m ρ _ =>
  (θ_run Cert.ReferenceIdeal.defs _ _).mono (fun _ h c => (h c).2) (Cert.ReferenceIdeal.Value.run (F := Ideal) m ρ)

/-- Idealizing the kernel rewrote nothing. -/
theorem preserves : Cert.preserves_Kernel_KernelIdeal := trivial

/-- From memories that agree on the four arguments, both programs end with their result array at
    `Cert.Joiner.result` of those arguments. -/
theorem algebraic : Cert.algebraic_KernelIdeal_ReferenceIdeal := by
  intro m ρ m' ρ' _ hagree
  refine ⟨fun c => Cert.Joiner.Kernel.arr m c, Cert.Joiner.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.Joiner.Ref.ref_eq, (hagree c).1, (hagree c).2.1, (hagree c).2.2.1,
    (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
